-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x64 .f32) (main_arg3 : FVec F S1600000 .f32) (main_arg4 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S2x1600000 : Shape := ⟨2, ![2, 1600000]⟩
abbrev S1x1600000 : Shape := ⟨2, ![1, 1600000]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S10000x64 : Shape := ⟨2, ![10000, 64]⟩
abbrev S1600000x64 : Shape := ⟨2, ![1600000, 64]⟩

abbrev nBuf : Space → Nat
  | .hbm => 43
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S1600000, .f32⟩
  | .hbm, ⟨4, _⟩ => ⟨S2x1600000, .i32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x1, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1600000x64 : Shape := ⟨2, ![1600000, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S1600000, .f32⟩
  | .hbm, ⟨4, _⟩ => ⟨S2x1600000, .i32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ResultRun.lean ====
/-
  The idealized kernel's program, run from any launch memory: every weakly fair execution terminates, nothing
  faults, and the result buffer ends holding what the LAST boundary of the program's five segments holds there
  (host operations, the first row-blocked matrix product, host operations, the second, host operations), the five
  argument arrays as launched. The boundary contents are a fold through the program: after a stretch of host
  operations, those operations' results; after a product's region, that region's arrays as its write-backs leave
  them and every other buffer as it was. What the last boundary holds at the result buffer is read back in
  the module Boundaries; here only the run is stated, with the result buffer kept beside the arguments.
-/
import proofs.«121851_j36429912604729_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result kept: the final state holds, at the result buffer, the last boundary's contents there,
    and at each argument its launch contents. The last thread state holds EVERY unscoped buffer at the last boundary's
    contents; the result buffer is one of them. -/
theorem run_result : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.ResultRun

end
-- ==== Proof.MatmulEntry.lean ====
/-
  What one grid point of each matrix-product region stores, entry by entry, over the extended reals.

  Region 0 multiplies a block of 10000 rows of the left array (all 128 columns) by the whole [128, 128] right array
  into a zero accumulator; the rounding of both factors to bf16 on the way in is the identity here. So the entry at
  row r, column c of the stored block is the sum over the 128 contracted positions k of left(r, k) · right(k, c).

  Region 1 does the same with a [128, 64] right array, after replacing every entry of its left block by its maximum
  with zero: the entry at (r, c) is the sum over k of max(left(r, k), 0) · right(k, c).

  Both are plain finite sums in a commutative monoid: no order of summation, and no finiteness of the entries, is
  involved.
-/
import proofs.«121851_j36429912604729_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatmulEntry

open Cert.KernelIdeal Cert.KernelIdeal.Gen Idealize.ShloMosaic Idealize.ShloMosaic.TcCoe Idealize.SL.Sem

/-! ## Region 0: a [10000, 128] block of rows times the [128, 128] right array -/

/-- The left factor of term k of entry j: row j₀, column k. -/
abbrev leftAt0 (j : S10000x128.Idx) (k : Fin 128) : S10000x128.Idx := fun a => match a with
  | ⟨0, _⟩ => ⟨(j 0).val, (j 0).isLt⟩
  | ⟨1, _⟩ => ⟨k.val, k.isLt⟩
/-- The right factor of term k of entry j: row k, column j₁. -/
abbrev rightAt0 (j : S10000x128.Idx) (k : Fin 128) : S128x128.Idx := fun a => match a with
  | ⟨0, _⟩ => ⟨k.val, k.isLt⟩
  | ⟨1, _⟩ => ⟨(j 1).val, (j 1).isLt⟩

/-- The product's left operand index keeps the output's row … -/
theorem lhs0_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and takes the contracted position as its column. -/
theorem lhs0_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- The right operand index takes the contracted position as its row … -/
theorem rhs0_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and keeps the output's column. -/
theorem rhs0_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A product of any two operands of these shapes into the zero accumulator, at entry j: the 128-term sum. -/
theorem product0_entry (l : FVec Ideal S10000x128 .bf16) (r : FVec Ideal S128x128 .bf16) (j : S10000x128.Idx) :
    FloatOps.matmul dot_S10000x128_S128x128_S10000x128_1_0_0_1_n_n none l r (constant S10000x128 .f32 0x00000000#32) j
      = ∑ k : Fin 128, l (leftAt0 j k) * r (rightAt0 j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = leftAt0 j k := funext fun a => Fin.ext (by
    match a with
    | ⟨0, _⟩ => exact lhs0_row _ _
    | ⟨1, _⟩ => exact (lhs0_col _ _).trans hk)
  have er : dot_S10000x128_S128x128_S10000x128_1_0_0_1_n_n.rhsIdx j ((ValueIdx.contrEquiv1 dot_S10000x128_S128x128_S10000x128_1_0_0_1_n_n 128 rfl rfl).symm k) = rightAt0 j k := funext fun a => Fin.ext (by
    match a with
    | ⟨0, _⟩ => exact (rhs0_row _ _).trans hk
    | ⟨1, _⟩ => exact rhs0_col _ _)
  rw [el, er]

/-- THE FIRST BODY'S STORED ENTRY: the sum over k of left(j₀, k) · right(k, j₁) of the two loaded blocks (the
    change of format on the way into the product is the identity on extended reals). -/
theorem first_entry (x0 : Vec Ideal S10000x128 .f32) (x1 : Vec Ideal S128x128 .f32) (j : S10000x128.Idx) :
    k0_pay1 (F := Ideal) x0 x1 j = ∑ k : Fin 128, x0 (leftAt0 j k) * x1 (rightAt0 j k) := by
  unfold k0_pay1
  exact product0_entry _ _ j

/-! ## Region 1: max(·, 0) of a [10000, 128] block of rows, times the [128, 64] right array -/

abbrev leftAt1 (j : S10000x64.Idx) (k : Fin 128) : S10000x128.Idx := fun a => match a with
  | ⟨0, _⟩ => ⟨(j 0).val, (j 0).isLt⟩
  | ⟨1, _⟩ => ⟨k.val, k.isLt⟩
abbrev rightAt1 (j : S10000x64.Idx) (k : Fin 128) : S128x64.Idx := fun a => match a with
  | ⟨0, _⟩ => ⟨k.val, k.isLt⟩
  | ⟨1, _⟩ => ⟨(j 1).val, (j 1).isLt⟩

theorem lhs1_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs1_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs1_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem product1_entry (l : FVec Ideal S10000x128 .bf16) (r : FVec Ideal S128x64 .bf16) (j : S10000x64.Idx) :
    FloatOps.matmul dot_S10000x128_S128x64_S10000x64_1_0_0_1_n_n none l r (constant S10000x64 .f32 0x00000000#32) j
      = ∑ k : Fin 128, l (leftAt1 j k) * r (rightAt1 j k) := by
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = leftAt1 j k := funext fun a => Fin.ext (by
    match a with
    | ⟨0, _⟩ => exact lhs1_row _ _
    | ⟨1, _⟩ => exact (lhs1_col _ _).trans hk)
  have er : dot_S10000x128_S128x64_S10000x64_1_0_0_1_n_n.rhsIdx j ((ValueIdx.contrEquiv1 dot_S10000x128_S128x64_S10000x64_1_0_0_1_n_n 128 rfl rfl).symm k) = rightAt1 j k := funext fun a => Fin.ext (by
    match a with
    | ⟨0, _⟩ => exact (rhs1_row _ _).trans hk
    | ⟨1, _⟩ => exact rhs1_col _ _)
  rw [el, er]

/-- THE SECOND BODY'S STORED ENTRY: the sum over k of max(left(j₀, k), 0) · right(k, j₁). The cast of the loaded
    block to its own shape reads every entry where it was. -/
theorem second_entry (x0 : Vec Ideal S10000x128 .f32) (x1 : Vec Ideal S128x64 .f32) (j : S10000x64.Idx) :
    k1_pay1 (F := Ideal) x0 x1 j
      = ∑ k : Fin 128, FloatOps.maximumf (F := Ideal) (φ := .f32) (x0 (leftAt1 j k)) (FloatOps.ofBits .f32 0x00000000#32) * x1 (rightAt1 j k) := by
  unfold k1_pay1
  refine (product1_entry _ _ j).trans ?_
  refine Finset.sum_congr rfl fun k _ => ?_
  show FloatOps.maximumf (F := Ideal) (φ := .f32) (shapeCast S10000x128 x0 _ (leftAt1 j k)) (FloatOps.ofBits .f32 0x00000000#32) * x1 (rightAt1 j k) = _
  rw [shapeCast_self]

end Cert.KernelIdeal.MatmulEntry

end
-- ==== Proof.BlocksToLayer.lean ====
/-
  From blocks to arrays, for the two matrix-product regions, each at ANY contents V of the buffers when the region is
  entered.

  A region runs ten grid points. Point t fetches rows 10000·t … 10000·t + 9999 of its left array (all 128 columns)
  and the whole right array, and writes back the same rows of its output array. By the module MatmulEntry the entry
  (r, c) it writes is the sum over the 128 contracted positions k of left(10000·t + r, k) · right(k, c) — with
  max(·, 0) taken of the left factor in region 1 —, which is entry (10000·t + r, c) of ONE function of the two whole
  arrays: the whole product. Every row of the output lies in exactly the block of point row / 10000, so after the
  ten write-backs the output array IS the whole product of the entry arrays. Nothing here depends on what V is.
-/
import proofs.«121851_j36429912604729_1_alg».proof.Proof.Gen.KernelIdeal.Frame
import proofs.«121851_j36429912604729_1_alg».proof.Proof.MatmulEntry

set_option maxRecDepth 16384

noncomputable section

namespace Cert.KernelIdeal.BlocksToLayer

open Cert.KernelIdeal Cert.KernelIdeal.Gen Cert.KernelIdeal.MatmulEntry
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Every access of a body is at offset zero on both axes. -/
theorem zero_offsets : (![0, 0] : Fin 2 → Nat) = fun _ => 0 := funext fun a => by fin_cases a <;> rfl

/-! ## Region 0 -/

/-- The left factor of term k of entry i of the whole product: row i₀, column k. -/
abbrev rowOf0 (i : S100000x128.Idx) (k : Fin 128) : S100000x128.Idx := fun a => match a with
  | ⟨0, _⟩ => ⟨(i 0).val, (i 0).isLt⟩
  | ⟨1, _⟩ => ⟨k.val, k.isLt⟩
/-- The right factor: row k, column i₁. -/
abbrev colOf0 (i : S100000x128.Idx) (k : Fin 128) : S128x128.Idx := fun a => match a with
  | ⟨0, _⟩ => ⟨k.val, k.isLt⟩
  | ⟨1, _⟩ => ⟨(i 1).val, (i 1).isLt⟩

/-- THE WHOLE PRODUCT of the left array by the right one: entry i is the sum over k of a(i₀, k) · w(k, i₁). -/
def product0 (a : Vec Ideal S100000x128 .f32) (w : Vec Ideal S128x128 .f32) : Vec Ideal S100000x128 .f32 :=
  fun i => ∑ k : Fin 128, a (rowOf0 i k) * w (colOf0 i k)

/-- The printed block maps over the ten grid points: the left window and the output window move together down the
    rows, one block of 10000 per point; every window sits at column block 0; the right window does not move. -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Each of the ten row blocks is some point's output block. -/
theorem block_of_row0 : ∀ q : Fin 10, ∃ t : Fin cfg0.N, win0_2.index t = ![q.val, 0] :=
  (by decide +kernel : ∀ q : Fin 10, ∃ t : Fin grid0.N, win0_2.index t = ![q.val, 0])

/-- ONE ENTRY OF ONE BLOCK, over any two whole arrays a and w: the body's stored entry (r, c) at point t, computed from
    block t of a and the block of w, is the whole product's entry at the place (10000·t + r, c) that entry of the output
    block has in the output array. Term by term: the left block's (r, k) is a's (10000·t + r, k), the right block's
    (k, c) is w's (k, c). -/
theorem block_entry0 (a : Vec Ideal S100000x128 .f32) (w : Vec Ideal S128x128 .f32) (t : Fin cfg0.N) (j : S10000x128.Idx) :
    k0_pay1 (F := Ideal) (((cfg0.win 0).blk t).view.read (Elt Ideal) a) (((cfg0.win 1).blk t).view.read (Elt Ideal) w) j
      = product0 a w (((cfg0.win 2).blk t).view.emb j) := by
  obtain ⟨e0, e1, e2, e3, e4⟩ := index_facts0 t
  refine (first_entry _ _ j).trans ?_
  unfold product0
  refine Finset.sum_congr rfl fun k _ => ?_
  have h0 : ((cfg0.win 0).blk t).view.emb (leftAt0 j k) = rowOf0 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (rightAt0 j k) = colOf0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hl : ((cfg0.win 0).blk t).view.read (Elt Ideal) a (leftAt0 j k) = a (rowOf0 (((cfg0.win 2).blk t).view.emb j) k) := by
    show a (((cfg0.win 0).blk t).view.emb (leftAt0 j k)) = _
    rw [h0]
  have hr : ((cfg0.win 1).blk t).view.read (Elt Ideal) w (rightAt0 j k) = w (colOf0 (((cfg0.win 2).blk t).view.emb j) k) := by
    show w (((cfg0.win 1).blk t).view.emb (rightAt0 j k)) = _
    rw [h1]
  rw [hl, hr]

/-- WHAT POINT t WRITES BACK is block t of the whole product of the arrays as the region finds them. -/
theorem written_back0 (c : Dev nD) (t : Fin cfg0.N) :
    (dat0 V c).flushed 2 t = ((cfg0.win 2).blk t).view.read (Elt Ideal) (product0 (V c main_arg0) (V c main_arg1)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  funext j
  exact block_entry0 (V c main_arg0) (V c main_arg1) t j

/-- An index of the output array is in point t's block iff each coordinate is in the block's range on its axis. -/
theorem in_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row i₀ lies in the block of the point whose row block is i₀ / 10000: the ten blocks cover the array. -/
theorem every_row_written0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_of_row0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [in_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY AFTER THE REGION is the whole product of the region's entry arrays. -/
theorem layer0 (c : Dev nD) : (dat0 V c).arrAt 2 cfg0.N = product0 (V c main_arg0) (V c main_arg1) :=
  (dat0 V c).arrAt_eq_of_cover 2 _ (fun t _ => written_back0 V c t) every_row_written0

/-! ## Region 1 -/

/-- The left factor of term k of entry i of the whole product: row i₀, column k. -/
abbrev rowOf1 (i : S100000x64.Idx) (k : Fin 128) : S100000x128.Idx := fun a => match a with
  | ⟨0, _⟩ => ⟨(i 0).val, (i 0).isLt⟩
  | ⟨1, _⟩ => ⟨k.val, k.isLt⟩
/-- The right factor: row k, column i₁. -/
abbrev colOf1 (i : S100000x64.Idx) (k : Fin 128) : S128x64.Idx := fun a => match a with
  | ⟨0, _⟩ => ⟨k.val, k.isLt⟩
  | ⟨1, _⟩ => ⟨(i 1).val, (i 1).isLt⟩

/-- THE WHOLE PRODUCT of max(a, 0) by the right array: entry i is the sum over k of max(a(i₀, k), 0) · w(k, i₁). -/
def product1 (a : Vec Ideal S100000x128 .f32) (w : Vec Ideal S128x64 .f32) : Vec Ideal S100000x64 .f32 :=
  fun i => ∑ k : Fin 128, FloatOps.maximumf (F := Ideal) (φ := .f32) (a (rowOf1 i k)) (FloatOps.ofBits .f32 0x00000000#32) * w (colOf1 i k)

/-- The printed block maps over the ten grid points: the left window and the output window move together down the
    rows, one block of 10000 per point; every window sits at column block 0; the right window does not move. -/
theorem index_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Each of the ten row blocks is some point's output block. -/
theorem block_of_row1 : ∀ q : Fin 10, ∃ t : Fin cfg1.N, win1_2.index t = ![q.val, 0] :=
  (by decide +kernel : ∀ q : Fin 10, ∃ t : Fin grid1.N, win1_2.index t = ![q.val, 0])

/-- ONE ENTRY OF ONE BLOCK, over any two whole arrays a and w: the body's stored entry (r, c) at point t, computed from
    block t of a and the block of w, is the whole product's entry at the place (10000·t + r, c) that entry of the output
    block has in the output array. Term by term: the left block's (r, k) is a's (10000·t + r, k), the right block's
    (k, c) is w's (k, c). -/
theorem block_entry1 (a : Vec Ideal S100000x128 .f32) (w : Vec Ideal S128x64 .f32) (t : Fin cfg1.N) (j : S10000x64.Idx) :
    k1_pay1 (F := Ideal) (((cfg1.win 0).blk t).view.read (Elt Ideal) a) (((cfg1.win 1).blk t).view.read (Elt Ideal) w) j
      = product1 a w (((cfg1.win 2).blk t).view.emb j) := by
  obtain ⟨e0, e1, e2, e3, e4⟩ := index_facts1 t
  refine (second_entry _ _ j).trans ?_
  unfold product1
  refine Finset.sum_congr rfl fun k _ => ?_
  have h0 : ((cfg1.win 0).blk t).view.emb (leftAt1 j k) = rowOf1 (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (rightAt1 j k) = colOf1 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  have hl : ((cfg1.win 0).blk t).view.read (Elt Ideal) a (leftAt1 j k) = a (rowOf1 (((cfg1.win 2).blk t).view.emb j) k) := by
    show a (((cfg1.win 0).blk t).view.emb (leftAt1 j k)) = _
    rw [h0]
  have hr : ((cfg1.win 1).blk t).view.read (Elt Ideal) w (rightAt1 j k) = w (colOf1 (((cfg1.win 2).blk t).view.emb j) k) := by
    show w (((cfg1.win 1).blk t).view.emb (rightAt1 j k)) = _
    rw [h1]
  rw [hl, hr]

/-- WHAT POINT t WRITES BACK is block t of the whole product of the arrays as the region finds them. -/
theorem written_back1 (c : Dev nD) (t : Fin cfg1.N) :
    (dat1 V c).flushed 2 t = ((cfg1.win 2).blk t).view.read (Elt Ideal) (product1 (V c main_v17) (V c main_arg2)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x64) zero_offsets]
  funext j
  exact block_entry1 (V c main_v17) (V c main_arg2) t j

/-- An index of the output array is in point t's block iff each coordinate is in the block's range on its axis. -/
theorem in_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v18).slice (win1_2.rect t)).set ↔ _
  rw [View.set_slice_whole, Rect.mem_set_unit]
  exact Iff.rfl

/-- Row i₀ lies in the block of the point whose row block is i₀ / 10000: the ten blocks cover the array. -/
theorem every_row_written1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_of_row1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [in_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY AFTER THE REGION is the whole product of the region's entry arrays. -/
theorem layer1 (c : Dev nD) : (dat1 V c).arrAt 2 cfg1.N = product1 (V c main_v17) (V c main_arg2) :=
  (dat1 V c).arrAt_eq_of_cover 2 _ (fun t _ => written_back1 V c t) every_row_written1

end Cert.KernelIdeal.BlocksToLayer

end
-- ==== Proof.ProductStage.lean ====
/-
  The two whole products of the module BlocksToLayer are the reference's two matrix-product stages.

  The reference's first stage is the host's dot_general of the left array by the [128, 128] right array; over the
  extended reals its entry i is the sum over the 128 contracted positions k of a(i₀, k) · w(k, i₁): the first whole
  product, term for term.

  Its second stage is the host's dot_general of max(a, 0) — the entrywise maximum of a with an array of zeros — by
  the [128, 64] right array: entry i is the sum over k of max(a(i₀, k), 0) · w(k, i₁), the second whole product.
-/
import proofs.«121851_j36429912604729_1_alg».proof.Proof.BlocksToLayer
import proofs.«121851_j36429912604729_1_alg».proof.Proof.Gen.ReferenceIdeal.Read

noncomputable section

namespace Cert.Bridge.ProductStage

open Idealize.ShloMosaic Idealize.ShloMosaic.TcCoe Idealize.SL.Sem
open Cert.KernelIdeal.BlocksToLayer

/-- The first whole product is the reference's first dot_general stage. -/
theorem product0_eq_stage (a : Vec Ideal Cert.KernelIdeal.S100000x128 .f32) (w : Vec Ideal Cert.KernelIdeal.S128x128 .f32) :
    product0 a w = Cert.ReferenceIdeal.Read.val_main_v4 (F := Ideal) a w := by
  funext i
  exact (Cert.ReferenceIdeal.Read.val_main_v4_apply a w i).symm

open Cert.ReferenceIdeal Cert.ReferenceIdeal.Read in
/-- The host's second dot_general of ANY left operand, at entry i: the 128-term sum. -/
theorem dot2_entry (l : (⟨Cert.ReferenceIdeal.S100000x128, .f32⟩ : BufTy).Contents (Elt Ideal)) (r : (⟨Cert.ReferenceIdeal.S128x64, .f32⟩ : BufTy).Contents (Elt Ideal))
    (i : Cert.ReferenceIdeal.S100000x64.Idx) :
    Host.dotGeneral (F := Ideal) (φ₁ := .f32) (φ₂ := .f32) dot_S100000x128_S128x64_S100000x64_1_0_0_1_n_n none l r i = ∑ k : Fin 128, l (lidx_main_v19 i k) * r (ridx_main_v19 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v19 i k := funext fun a => Fin.ext (by
    match a with
    | ⟨0, _⟩ => exact lhs_main_v19_0 _ _
    | ⟨1, _⟩ => exact (lhs_main_v19_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v19 i k := funext fun a => Fin.ext (by
    match a with
    | ⟨0, _⟩ => exact (rhs_main_v19_0 _ _).trans hk
    | ⟨1, _⟩ => exact rhs_main_v19_1 _ _)
  rw [el, er]

open Cert.ReferenceIdeal Cert.ReferenceIdeal.Read in
/-- The second whole product of a and w is the reference's second dot_general of max(a, zeros) and w: the array
    of zeros reads zero at every index. -/
theorem product1_eq_stage (a : Vec Ideal Cert.KernelIdeal.S100000x128 .f32) (w : Vec Ideal Cert.KernelIdeal.S128x64 .f32) :
    product1 a w = Host.dotGeneral (F := Ideal) (φ₁ := .f32) (φ₂ := .f32) dot_S100000x128_S128x64_S100000x64_1_0_0_1_n_n none (maximumf (φ := .f32) a (val_main_call0_v0 (F := Ideal))) w := by
  funext i
  refine Eq.trans ?_ (dot2_entry _ _ i).symm
  unfold product1
  refine Finset.sum_congr rfl fun k _ => ?_
  show _ = FloatOps.maximumf (F := Ideal) (φ := .f32) (a (lidx_main_v19 i k)) (val_main_call0_v0 (F := Ideal) (lidx_main_v19 i k)) * w (ridx_main_v19 i k)
  rw [val_main_call0_v0_apply, val_main_call0_cst_apply]
  rfl

end Cert.Bridge.ProductStage

end
-- ==== Proof.Boundaries.lean ====
/-
  What the idealized kernel's program holds at the result buffer when it ends, as the reference's own stages.

  The program is five segments; write B1 … B5 for the buffer contents after each (module ResultRun: the result ends at
  B5's contents). Five buffers matter besides the two layers' arrays: the row of gathered-from node numbers and the row
  of scattered-to node numbers (both cut out of the edge array by the first stretch of host operations and never
  written again), the edge weights, and the two weight matrices (arguments, never written).

  B1 (after the first host operations): the two rows are the reference's stages of the same name.
  B2 (after region 0): the first layer's array is the whole product of the node features by the first weight
     matrix (module BlocksToLayer, at B1's contents) — the reference's first dot_general (module ProductStage).
  B3 (after the middle host operations): gather rows of that array, scale each by its edge weight, add each into its
     destination row — the very operations the reference applies, to the same operands: its aggregation stage.
  B4 (after region 1): the whole product of max(·, 0) of B3's aggregate by the second weight matrix: the reference's
     relu and second dot_general.
  B5 (after the last host operations): the same gather, scale and add as the reference's last stage.

  The gather and the scatter-add are never opened: both programs apply the SAME operations, and the proof only
  shows that they apply them to equal operands.
-/
import proofs.«121851_j36429912604729_1_alg».proof.Proof.Gen.KernelIdeal.Frame
import proofs.«121851_j36429912604729_1_alg».proof.Proof.BlocksToLayer
import proofs.«121851_j36429912604729_1_alg».proof.Proof.ProductStage
import Idealize.ShloMosaic.Lib.StableHlo.Run

set_option maxRecDepth 16384

noncomputable section

namespace Cert.Bridge.Boundaries

open Cert.KernelIdeal Cert.KernelIdeal.Gen Cert.KernelIdeal.BlocksToLayer Cert.Bridge.ProductStage
open Idealize.ShloMosaic Idealize.ShloMosaic.TcCoe Idealize.SL.Sem Idealize.ShloMosaic.StableHlo
open Cert.ReferenceIdeal.Read (val_main_v1 val_main_v3 val_main_v4 val_main_v17 val_main_v19 val_main_v32)

variable (m : (ℓ : Loc nD τ sig) → Buf (Elt Ideal) ℓ) (ρ : Dev nD → PrngReg)

/-! ## The argument arrays at launch -/

abbrev nodeFeatures (c : Dev nD) : (⟨S100000x128, .f32⟩ : BufTy).Contents (Elt Ideal) := m ((c.tc : Thread nD τ).loc main_arg0)
abbrev weights1 (c : Dev nD) : (⟨S128x128, .f32⟩ : BufTy).Contents (Elt Ideal) := m ((c.tc : Thread nD τ).loc main_arg1)
abbrev weights2 (c : Dev nD) : (⟨S128x64, .f32⟩ : BufTy).Contents (Elt Ideal) := m ((c.tc : Thread nD τ).loc main_arg2)
abbrev edgeWeights (c : Dev nD) : (⟨S1600000, .f32⟩ : BufTy).Contents (Elt Ideal) := m ((c.tc : Thread nD τ).loc main_arg3)
abbrev edgeEnds (c : Dev nD) : (⟨S2x1600000, .i32⟩ : BufTy).Contents (Elt Ideal) := m ((c.tc : Thread nD τ).loc main_arg4)

/-! ## B1: after the first host operations (the two rows of the edge array) -/

theorem b1_src (c : Dev nD) : W1 m ρ c (Proc.devRef .tc main_v1) = val_main_v1 (F := Ideal) (edgeEnds m c) := by
  show StableHlo.after hostOps0 (W0 m ρ c) (Proc.devRef .tc main_v1) = _
  after_results
  rfl
theorem b1_dst (c : Dev nD) : W1 m ρ c (Proc.devRef .tc main_v3) = val_main_v3 (F := Ideal) (edgeEnds m c) := by
  show StableHlo.after hostOps0 (W0 m ρ c) (Proc.devRef .tc main_v3) = _
  after_results
  rfl
theorem b1_x (c : Dev nD) : W1 m ρ c (Proc.devRef .tc main_arg0) = nodeFeatures m c := by
  show StableHlo.after hostOps0 (W0 m ρ c) (Proc.devRef .tc main_arg0) = _
  after_results
theorem b1_w1 (c : Dev nD) : W1 m ρ c (Proc.devRef .tc main_arg1) = weights1 m c := by
  show StableHlo.after hostOps0 (W0 m ρ c) (Proc.devRef .tc main_arg1) = _
  after_results
theorem b1_w2 (c : Dev nD) : W1 m ρ c (Proc.devRef .tc main_arg2) = weights2 m c := by
  show StableHlo.after hostOps0 (W0 m ρ c) (Proc.devRef .tc main_arg2) = _
  after_results
theorem b1_ew (c : Dev nD) : W1 m ρ c (Proc.devRef .tc main_arg3) = edgeWeights m c := by
  show StableHlo.after hostOps0 (W0 m ρ c) (Proc.devRef .tc main_arg3) = _
  after_results

/-! ## B2: after region 0 (the first layer's array; every other buffer as at B1) -/

/-- The first layer's array: the whole product of the node features by the first weight matrix. -/
theorem b2_layer (c : Dev nD) :
    W2 m ρ c (Proc.devRef .tc main_v4) = val_main_v4 (F := Ideal) (nodeFeatures m c) (weights1 m c) :=
  ((W2_arr m ρ c 2).trans (layer0 (V1 m ρ) c)).trans
    ((congrArg₂ product0 (b1_x m ρ c) (b1_w1 m ρ c)).trans (product0_eq_stage _ _))
theorem b2_src (c : Dev nD) : W2 m ρ c (Proc.devRef .tc main_v1) = val_main_v1 (F := Ideal) (edgeEnds m c) :=
  (W2_of_ne m ρ c main_v1 (by decide)).trans (b1_src m ρ c)
theorem b2_dst (c : Dev nD) : W2 m ρ c (Proc.devRef .tc main_v3) = val_main_v3 (F := Ideal) (edgeEnds m c) :=
  (W2_of_ne m ρ c main_v3 (by decide)).trans (b1_dst m ρ c)
theorem b2_ew (c : Dev nD) : W2 m ρ c (Proc.devRef .tc main_arg3) = edgeWeights m c :=
  (W2_of_ne m ρ c main_arg3 (by decide)).trans (b1_ew m ρ c)
theorem b2_w2 (c : Dev nD) : W2 m ρ c (Proc.devRef .tc main_arg2) = weights2 m c :=
  (W2_of_ne m ρ c main_arg2 (by decide)).trans (b1_w2 m ρ c)

/-! ## B3: after the middle host operations (the first aggregation) -/

/-- The first aggregate: the reference's gather, scale and scatter-add, of equal operands. -/
theorem b3_aggregate (c : Dev nD) :
    W3 m ρ c (Proc.devRef .tc main_v17)
      = val_main_v17 (F := Ideal) (nodeFeatures m c) (weights1 m c) (edgeWeights m c) (edgeEnds m c) := by
  show StableHlo.after hostOps1 (W2 m ρ c) (Proc.devRef .tc main_v17) = _
  after_results
  rw [b2_layer, b2_src, b2_dst, b2_ew]
  rfl
theorem b3_src (c : Dev nD) : W3 m ρ c (Proc.devRef .tc main_v1) = val_main_v1 (F := Ideal) (edgeEnds m c) := by
  show StableHlo.after hostOps1 (W2 m ρ c) (Proc.devRef .tc main_v1) = _
  after_results
  exact b2_src m ρ c
theorem b3_dst (c : Dev nD) : W3 m ρ c (Proc.devRef .tc main_v3) = val_main_v3 (F := Ideal) (edgeEnds m c) := by
  show StableHlo.after hostOps1 (W2 m ρ c) (Proc.devRef .tc main_v3) = _
  after_results
  exact b2_dst m ρ c
theorem b3_ew (c : Dev nD) : W3 m ρ c (Proc.devRef .tc main_arg3) = edgeWeights m c := by
  show StableHlo.after hostOps1 (W2 m ρ c) (Proc.devRef .tc main_arg3) = _
  after_results
  exact b2_ew m ρ c
theorem b3_w2 (c : Dev nD) : W3 m ρ c (Proc.devRef .tc main_arg2) = weights2 m c := by
  show StableHlo.after hostOps1 (W2 m ρ c) (Proc.devRef .tc main_arg2) = _
  after_results
  exact b2_w2 m ρ c

/-! ## B4: after region 1 (the second layer's array; every other buffer as at B3) -/

/-- The second layer's array: the whole product of max(·, 0) of the first aggregate by the second weight matrix —
    the reference's relu followed by its second dot_general. -/
theorem b4_layer (c : Dev nD) :
    W4 m ρ c (Proc.devRef .tc main_v18)
      = val_main_v19 (F := Ideal) (nodeFeatures m c) (weights1 m c) (weights2 m c) (edgeWeights m c) (edgeEnds m c) :=
  ((W4_arr m ρ c 2).trans (layer1 (V3 m ρ) c)).trans
    ((congrArg₂ product1 (b3_aggregate m ρ c) (b3_w2 m ρ c)).trans ((product1_eq_stage _ _).trans rfl))
theorem b4_src (c : Dev nD) : W4 m ρ c (Proc.devRef .tc main_v1) = val_main_v1 (F := Ideal) (edgeEnds m c) :=
  (W4_of_ne m ρ c main_v1 (by decide)).trans (b3_src m ρ c)
theorem b4_dst (c : Dev nD) : W4 m ρ c (Proc.devRef .tc main_v3) = val_main_v3 (F := Ideal) (edgeEnds m c) :=
  (W4_of_ne m ρ c main_v3 (by decide)).trans (b3_dst m ρ c)
theorem b4_ew (c : Dev nD) : W4 m ρ c (Proc.devRef .tc main_arg3) = edgeWeights m c :=
  (W4_of_ne m ρ c main_arg3 (by decide)).trans (b3_ew m ρ c)

/-! ## B5: after the last host operations (the result) -/

/-- THE RESULT: the reference's last stage of the five argument arrays. -/
theorem result_value (c : Dev nD) :
    W5 m ρ c (Proc.devRef .tc main_v31)
      = val_main_v32 (F := Ideal) (nodeFeatures m c) (weights1 m c) (weights2 m c) (edgeWeights m c) (edgeEnds m c) := by
  show StableHlo.after hostOps2 (W4 m ρ c) (Proc.devRef .tc main_v31) = _
  after_results
  rw [b4_layer, b4_src, b4_dst, b4_ew]
  rfl

end Cert.Bridge.Boundaries

end
-- ==== Proof.lean ====
/-
  Two graph-convolution layers on a graph of 100000 nodes and 1600000 weighted edges. The kernel's program and the
  reference compute, over the extended reals, the same function of the five arguments (node features x, weight
  matrices W1 and W2, edge weights, edge endpoints):

      layer(h) = for every edge e: add  weight(e) · h[from(e)]  into row to(e) of an array of zeros
      result   = layer( max(layer(x · W1), 0) · W2 )

  The reference computes the two products as whole dot_generals and the max as a separate host stage. The kernel
  computes each product in a grid of ten points, one block of 10000 rows per point, into a zero accumulator — its
  factors rounded to bf16 on the way in, which over the extended reals changes nothing — and takes the max inside the
  second product's body. The gathers, the scalings by edge weights and the scatter-adds are the same host
  operations in both programs.

  So the proof has three parts. (1) An entry of a block product is a 128-term sum (MatmulEntry); the ten blocks
  written back by a region assemble the whole product of the region's entry arrays (BlocksToLayer), which is the
  reference's dot_general stage (ProductStage). (2) The kernel's program ends with its result buffer at the last of
  its five boundaries' contents (ResultRun), and boundary by boundary those contents are the reference's stages of
  the arguments (Boundaries) — the shared gather and scatter-add never opened. (3) The reference's run ends at its
  last stage (its generated run). Sums here are finite sums in a commutative monoid and the max is entrywise, so no
  step uses that the inputs are finite: the precondition is never opened.

  The three frame claims are the generated frames (the reference's: its generated run with the result dropped);
  the kernel's idealization rewrote nothing, so that claim is trivial.
-/
import proofs.«121851_j36429912604729_1_alg».proof.Defs
import proofs.«121851_j36429912604729_1_alg».proof.Proof.Gen.Kernel
import proofs.«121851_j36429912604729_1_alg».proof.Proof.Gen.Kernel.Skeleton
import proofs.«121851_j36429912604729_1_alg».proof.Proof.Gen.Kernel.Launch
import proofs.«121851_j36429912604729_1_alg».proof.Proof.Gen.Kernel.Points
import proofs.«121851_j36429912604729_1_alg».proof.Proof.Gen.Kernel.Frame
import proofs.«121851_j36429912604729_1_alg».proof.Proof.Gen.KernelIdeal
import proofs.«121851_j36429912604729_1_alg».proof.Proof.Gen.KernelIdeal.Skeleton
import proofs.«121851_j36429912604729_1_alg».proof.Proof.Gen.KernelIdeal.Launch
import proofs.«121851_j36429912604729_1_alg».proof.Proof.Gen.KernelIdeal.Points
import proofs.«121851_j36429912604729_1_alg».proof.Proof.Gen.KernelIdeal.Frame
import proofs.«121851_j36429912604729_1_alg».proof.Proof.Gen.ReferenceIdeal
import proofs.«121851_j36429912604729_1_alg».proof.Proof.Gen.Pre_finite_inputs
import proofs.«121851_j36429912604729_1_alg».proof.Proof.Gen.ReferenceIdeal.Run
import proofs.«121851_j36429912604729_1_alg».proof.Proof.Gen.ReferenceIdeal.Read
import proofs.«121851_j36429912604729_1_alg».proof.Proof.ResultRun
import proofs.«121851_j36429912604729_1_alg».proof.Proof.Boundaries
import Idealize.ShloMosaic.Adequacy
import Idealize.ShloMosaic.Init

noncomputable section

namespace Cert.Proof

open Idealize.ShloMosaic Idealize.ShloMosaic.TcCoe Idealize.SL.Sem

/-- The kernel's program as printed terminates, faults nowhere and leaves its arguments as launched. -/
theorem frame_kernel : Cert.frame_Kernel := fun m ρ _ => Cert.Kernel.Gen.frame m ρ
/-- So does its idealization. -/
theorem frame_kernel_ideal : Cert.frame_KernelIdeal := fun m ρ _ => Cert.KernelIdeal.Gen.frame m ρ
/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the reference's last stage of those
    arguments in their result buffers: the kernel's by ResultRun and Boundaries, the reference's by its own run. -/
theorem algebraic : Cert.algebraic_KernelIdeal_ReferenceIdeal := by
  intro m ρ m' ρ' _ hagree
  have hkernel := (θ_run Cert.KernelIdeal.defs _ _).mono
    (fun r h c => (⟨(h c).1.trans (Cert.Bridge.Boundaries.result_value m ρ c), (h c).2⟩ : _ ∧ _))
    (Cert.KernelIdeal.ResultRun.run_result (F := Ideal) m ρ)
  refine ⟨_, hkernel, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
